-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x32 : Shape := ⟨2, ![100000, 32]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x100000 .f32) (main_arg1 : FVec F S100000x32 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x100000 : Shape := ⟨2, ![1024, 100000]⟩
abbrev S100000x32 : Shape := ⟨2, ![100000, 32]⟩
abbrev S100000x1024 : Shape := ⟨2, ![100000, 1024]⟩
abbrev S32x100000 : Shape := ⟨2, ![32, 100000]⟩
abbrev S32x1024 : Shape := ⟨2, ![32, 1024]⟩
abbrev S32x2816 : Shape := ⟨2, ![32, 2816]⟩
abbrev S2816x1024 : Shape := ⟨2, ![2816, 1024]⟩
abbrev S1024x32 : Shape := ⟨2, ![1024, 32]⟩

abbrev nBuf : Space → Nat
  | .hbm => 6
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S100000x1024, .f32⟩
  | .hbm, ⟨3, _⟩ => ⟨S32x100000, .f32⟩
  | .hbm, ⟨4, _⟩ => ⟨S32x1024, .f32⟩
  | .hbm, ⟨5, _⟩ => ⟨S1024x32, .f32⟩
  | .local _ .vmem, ⟨0, _⟩ => ⟨S32x2816, .f32⟩
  | .local _ .vmem, ⟨1, _⟩ => ⟨S32x2816, .f32⟩
  | .local _ .vmem, ⟨2, _⟩ => ⟨S2816x1024, .f32⟩
  | .local _ .vmem, ⟨3, _⟩ => ⟨S2816x1024, .f32⟩
  | .local _ .vmem, ⟨4, _⟩ => ⟨S32x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c35_i32 : BitVec 32 := 35#32
  let v3 : BitVec 1 := Scalar.cmpi .slt arg0 c35_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c35_i32_2 : BitVec 32 := 35#32
  let v6 : BitVec 1 := Scalar.cmpi .eq arg0 c35_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2816x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S1024x100000_S100000x1024_1_0 : S1024x100000.Transposes [1, 0] S100000x1024
  transposes_S100000x32_S32x100000_1_0 : S100000x32.Transposes [1, 0] S32x100000
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S32x2816_S32x2816_0_0 : ∀ a, (![0, 0] : Fin 2 → Nat) a + S32x2816.size a ≤ S32x2816.size a
  h_S32x2816 : 0 < S32x2816.numel
  shapeCasts_S32x2816_S32x2816 : S32x2816.ShapeCasts S32x2816
  bitsLt_bf16_f32 : FTy.bits .bf16 < FTy.bits .f32
  inb_S2816x1024_S2816x1024_0_0 : ∀ a, (![0, 0] : Fin 2 → Nat) a + S2816x1024.size a ≤ S2816x1024.size a
  h_S2816x1024 : 0 < S2816x1024.numel
  shapeCasts_S2816x1024_S2816x1024 : S2816x1024.ShapeCasts S2816x1024
  iota_S32x2816_d1_w32 : S32x2816.Iotas .tc 32 [1]
  iota_S2816x1024_d0_w32 : S2816x1024.Iotas .tc 32 [0]
  transposes_S32x1024_S1024x32_1_0 : S32x1024.Transposes [1, 0] S1024x32
  dot_S32x2816_S2816x1024_S32x1024_1_0_0_1_n_n_wf : DotDims.WF S32x2816 S2816x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x2816.size a < S32x100000.size a
  hwx0_0 : ∀ i : grid0.Coords, EltTy.bits .f32 = 32 ∨ (Rect.unit (s := S32x100000) (fun a => cc0_transform_0 i a * S32x2816.size a) (fun a => (Pipeline.Clip.of (cc0_transform_0 i a) (S32x2816.size a) (S32x100000.size a)).extent (S32x2816.size a)) fun a => Pipeline.Clip.inb (Pipeline.Clip.ok_of (hstart0_0 i a))).WholeWords (EltTy.packing .f32)
  hwxs0_0 : ∀ i : grid0.Coords, EltTy.bits .f32 = 32 ∨ (Rect.unit (s := S32x2816) (fun _ => 0) (fun a => (Pipeline.Clip.of (cc0_transform_0 i a) (S32x2816.size a) (S32x100000.size a)).extent (S32x2816.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2816x1024.size a < S100000x1024.size a
  hwx0_1 : ∀ i : grid0.Coords, EltTy.bits .f32 = 32 ∨ (Rect.unit (s := S100000x1024) (fun a => cc0_transform_1 i a * S2816x1024.size a) (fun a => (Pipeline.Clip.of (cc0_transform_1 i a) (S2816x1024.size a) (S100000x1024.size a)).extent (S2816x1024.size a)) fun a => Pipeline.Clip.inb (Pipeline.Clip.ok_of (hstart0_1 i a))).WholeWords (EltTy.packing .f32)
  hwxs0_1 : ∀ i : grid0.Coords, EltTy.bits .f32 = 32 ∨ (Rect.unit (s := S2816x1024) (fun _ => 0) (fun a => (Pipeline.Clip.of (cc0_transform_1 i a) (S2816x1024.size a) (S100000x1024.size a)).extent (S2816x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)

variable [Facts₀]

def dot_S32x2816_S2816x1024_S32x1024_1_0_0_1_n_n : DotDims S32x2816 S2816x1024 S32x1024 where
  lhsContracting := [1]
  rhsContracting := [0]
  lhsNonContracting := [0]
  rhsNonContracting := [1]
  lhsBatch := []
  rhsBatch := []
  wf := dot_S32x2816_S2816x1024_S32x1024_1_0_0_1_n_n_wf

abbrev win0_0 : Pipeline.Window sig grid0 :=
  Pipeline.Window.ofSpecClip (Memref.whole main_v1) S32x2816.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S2816x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S32x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S1024x100000 : Shape := ⟨2, ![1024, 100000]⟩
abbrev S100000x32 : Shape := ⟨2, ![100000, 32]⟩
abbrev S1024x32 : Shape := ⟨2, ![1024, 32]⟩

abbrev nBuf : Space → Nat
  | .hbm => 3
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x32, .f32⟩
  | .hbm, ⟨2, _⟩ => ⟨S1024x32, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x100000_S100000x32_S1024x32_1_0_0_1_n_n_wf : DotDims.WF S1024x100000 S100000x32 S1024x32 [1] [0] [0] [1] [] []

variable [Facts₀]

def dot_S1024x100000_S100000x32_S1024x32_1_0_0_1_n_n : DotDims S1024x100000 S100000x32 S1024x32 where
  lhsContracting := [1]
  rhsContracting := [0]
  lhsNonContracting := [0]
  rhsNonContracting := [1]
  lhsBatch := []
  rhsBatch := []
  wf := dot_S1024x100000_S100000x32_S1024x32_1_0_0_1_n_n_wf

class Facts : Prop extends Facts₀ where

variable [Facts]
-- ==== Proof.BitsBody.lean ====
import proofs.«122633_g60258391163021_cont_9to1_m_978_26_alg».proof.Proof.Gen.Kernel.Launch
import proofs.«122633_g60258391163021_cont_9to1_m_978_26_alg».proof.Proof.Gen.Kernel.Skeleton
import proofs.«122633_g60258391163021_cont_9to1_m_978_26_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body, case by case

The body is three conditionals on the grid coordinate `k`: at `k = 0` it zeroes the output block; at
`k < 35` it adds to the output block the product of the two input blocks; at `k = 35` it adds the product of
the two input blocks with the columns (rows) from 1440 on replaced by zero. On a 36-point grid exactly three
combinations occur: the first point (zero, then add), the middle points (add), the last point (masked add).
Each input buffer is read whole and left as found; the output buffer is stored whole, so it ends holding the
stored value whatever it held. -/

/-- The first point: the output block is zeroed and the product of the input blocks added to the zeros. -/
theorem run_first (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay2 (k0_pay1 (F := F)) x1 x2)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

/-- A middle point: the product of the input blocks is added to what the output block held. -/
theorem run_mid (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay2 x3 x1 x2)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

/-- The last point: the product of the masked input blocks is added to what the output block held. -/
theorem run_last (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay3 x1 x2 x3)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

end Cert.Kernel.Hand

end
-- ==== Proof.BitsData.lean ====
import proofs.«122633_g60258391163021_cont_9to1_m_978_26_alg».proof.Proof.BitsBody
import proofs.«122633_g60258391163021_cont_9to1_m_978_26_alg».proof.Proof.Gen.Kernel.Frame
import Idealize.ShloMosaic.Lib.Pipeline.Frame
import Idealize.ShloMosaic.Lib.Pipeline.FrameSuffix
import Idealize.ShloMosaic.Lib.WordArith

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: which case each point is, and where the input blocks are cut

The grid has 36 points. The 2816-wide blocks of the 100000-long contraction axis start at `2816 · k`; the
first 35 lie inside the arrays and the last one, starting at 98560, overhangs them: only its first 1440
columns (rows) are in the array, and only those are fetched. -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 35 :=
  (by decide +kernel : ∀ t : Fin grid0.N, k0_cond2 (grid0.coords t) = 1#1 ↔ t.val < 35)
theorem cond3_iff : ∀ t : Fin cfg0.N, k0_cond3 (grid0.coords t) = 1#1 ↔ t.val = 35 :=
  (by decide +kernel : ∀ t : Fin grid0.N, k0_cond3 (grid0.coords t) = 1#1 ↔ t.val = 35)
/-- Every point stores into the output block. -/
theorem live2 : ∀ t : Fin cfg0.N, cfg0.idle 2 (cfg0.grid.coords t) = false :=
  (by decide +kernel : ∀ t : Fin grid0.N, idle0 2 (grid0.coords t) = false)
/-- Before the last point the input blocks lie inside their arrays. -/
theorem noclip0 : ∀ t : Fin cfg0.N, t.val < 35 → ∀ a, (cfg0.win 0).clip (cfg0.grid.coords t) a = none :=
  (by decide +kernel : ∀ t : Fin grid0.N, t.val < 35 → ∀ a, win0_0.clip (grid0.coords t) a = none)
theorem noclip1 : ∀ t : Fin cfg0.N, t.val < 35 → ∀ a, (cfg0.win 1).clip (cfg0.grid.coords t) a = none :=
  (by decide +kernel : ∀ t : Fin grid0.N, t.val < 35 → ∀ a, win0_1.clip (grid0.coords t) a = none)

/-! ## What the staging buffers hold -/

/-- The first input's block at point `t` as a full 32 × 2816 block: the part inside the array, zero past its end. -/
def inA (c : Dev nD) (t : Fin cfg0.N) : Vec F S32x2816 .f32 :=
  win0_0.fill (grid0.coords t) (fun _ => Scalar.ofBits .f32 0#32) (iblk m c 0 t)
/-- The second input's block at point `t` as a full 2816 × 1024 block: the part inside the array, zero past its end. -/
def inB (c : Dev nD) (t : Fin cfg0.N) : Vec F S2816x1024 .f32 :=
  win0_1.fill (grid0.coords t) (fun _ => Scalar.ofBits .f32 0#32) (iblk m c 1 t)

/-- The accumulator: what the output block holds after the body at position `n` — at the first point the
    product of the blocks added to zeros, then each point's product added to what the point before left, the
    last one with its blocks masked. -/
def acc (c : Dev nD) : (n : ℕ) → n < cfg0.N → Vec F S32x1024 .f32
  | 0, hn => k0_pay2 (k0_pay1 (F := F)) (inA m c ⟨0, hn⟩) (inB m c ⟨0, hn⟩)
  | n + 1, hn =>
    if n + 1 < 35 then k0_pay2 (acc c n (Nat.lt_of_succ_lt hn)) (inA m c ⟨n + 1, hn⟩) (inB m c ⟨n + 1, hn⟩)
    else k0_pay3 (inA m c ⟨n + 1, hn⟩) (inB m c ⟨n + 1, hn⟩) (acc c n (Nat.lt_of_succ_lt hn))

theorem acc_first (c : Dev nD) (t : Fin cfg0.N) (h : t.val = 0) :
    acc m c t.val t.isLt = k0_pay2 (k0_pay1 (F := F)) (inA m c t) (inB m c t) := by
  obtain ⟨n, hn⟩ := t
  cases n with
  | zero => rfl
  | succ n => exact absurd h (Nat.succ_ne_zero n)

theorem acc_mid (c : Dev nD) (t : Fin cfg0.N) (h0 : t.val ≠ 0) (h : t.val < 35) :
    acc m c t.val t.isLt = k0_pay2 (acc m c (t.val - 1) (Nat.lt_of_le_of_lt (Nat.sub_le _ _) t.isLt)) (inA m c t) (inB m c t) := by
  obtain ⟨n, hn⟩ := t
  cases n with
  | zero => exact absurd rfl h0
  | succ n => exact (if_pos h).trans rfl

theorem acc_last (c : Dev nD) (t : Fin cfg0.N) (h0 : t.val ≠ 0) (h : ¬ t.val < 35) :
    acc m c t.val t.isLt = k0_pay3 (inA m c t) (inB m c t) (acc m c (t.val - 1) (Nat.lt_of_le_of_lt (Nat.sub_le _ _) t.isLt)) := by
  obtain ⟨n, hn⟩ := t
  cases n with
  | zero => exact absurd rfl h0
  | succ n => exact (if_neg h).trans rfl

/-- The proof data of the one pipeline on core `c`: the arrays as the region finds them; after the body each
    input's buffer at its block (zero past the array's end) and the output's at the accumulator. -/
def dats (_ : Fin 1) (c : Dev nD) : Dat τ (Elt F) Unit ℕ (UR sig nD τ) ℕ cfg0 c where
  A w := V m c (Pipeline.arrRef spec0 w)
  after w t := match w with
    | ⟨0, _⟩ => inA m c t
    | ⟨1, _⟩ => inB m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = inA m c t := by dsimp only [dats]
theorem after_1 (c : Dev nD) (t : Fin cfg0.N) : (dats m 0 c).after 1 t = inB m c t := by dsimp only [dats]
theorem after_2 (c : Dev nD) (t : Fin cfg0.N) : (dats m 0 c).after 2 t = acc m c t.val t.isLt := by dsimp only [dats]

/-- An input's buffer, just fetched, holds its block on the part inside the array and anything past it. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-- After the first point the output's buffer holds what the point before left: it is written back at the last
    point only, every point is live for it, and its block is the whole array. -/
theorem before_2 (c : Dev nD) (t : Fin cfg0.N) (ht : t.val ≠ 0) (d) :
    (dats m 0 c).before 2 t d = acc m c (t.val - 1) (Nat.lt_of_le_of_lt (Nat.sub_le _ _) t.isLt) := by
  have hN : t.val < 36 := lt_of_lt_of_eq t.isLt (show cfg0.N = 36 from N_0)
  rw [Dat.before_of_pos _ 2 t ht ((cfg0.win 2).fetch_out rfl t),
    if_neg (fun h => by have := (flush0_2 _).mp h; dsimp only at this; omega)]
  unfold Dat.left; rw [live2]; dsimp only
  unfold Dat.kept
  rw [Pipeline.fill_of_clip_none (cfg := cfg0) 2 _ (fun _ => rfl) d ((dats m 0 c).after 2 _), Window.fill_cut]
  dsimp only [dats]

/-! ## The last point does not look past the arrays' end

At the last point the body replaces, before it multiplies, every column of the first block (every row of the
second) from 1440 on by zero, and those are exactly the ones past the arrays' end: so what the product is does
not depend on what the staging buffers hold there. -/

/-- A small natural number, as a 32-bit word, is signed-below 1440 iff it is below 1440. -/
theorem slt_1440_iff (n : ℕ) (hn : n < 2 ^ 31) : IntOp.cmpi .slt (BitVec.ofNat 32 n) 1440#32 = 1#1 ↔ n < 1440 := by
  rw [IntOp.cmpi_slt, WordArith.toInt_ofNat_small n hn, show (1440#32 : BitVec 32).toInt = 1440 from by decide]
  omega

/-- The first block with its columns from 1440 on replaced by zero. -/
def maskA (x : Vec F S32x2816 .f32) : FVec F S32x2816 .f32 :=
  select (cmpi .slt (iota .tc S32x2816 32 [1] iota_S32x2816_d1_w32) (broadcast S32x2816 1440#32))
    (shapeCast S32x2816 x shapeCasts_S32x2816_S32x2816) (broadcast S32x2816 (Scalar.ofBits .f32 0x00000000#32))
/-- The second block with its rows from 1440 on replaced by zero. -/
def maskB (x : Vec F S2816x1024 .f32) : FVec F S2816x1024 .f32 :=
  select (cmpi .slt (iota .tc S2816x1024 32 [0] iota_S2816x1024_d0_w32) (broadcast S2816x1024 1440#32))
    (shapeCast S2816x1024 x shapeCasts_S2816x1024_S2816x1024) (broadcast S2816x1024 (Scalar.ofBits .f32 0x00000000#32))

/-- The last point's stored value: the output block plus the product of the masked blocks. -/
def lastSum (a : FVec F S32x2816 .f32) (b : FVec F S2816x1024 .f32) (x3 : Vec F S32x1024 .f32) : FVec F S32x1024 .f32 :=
  addf (shapeCast S32x1024 x3 shapeCasts_S32x1024_S32x1024)
    (matmul dot_S32x2816_S2816x1024_S32x1024_1_0_0_1_n_n none (truncf .bf16 a bitsLt_bf16_f32) (truncf .bf16 b bitsLt_bf16_f32)
      (constant S32x1024 .f32 0x00000000#32))

theorem pay3_eq (x1 : Vec F S32x2816 .f32) (x2 : Vec F S2816x1024 .f32) (x3 : Vec F S32x1024 .f32) :
    k0_pay3 x1 x2 x3 = lastSum (maskA x1) (maskB x2) x3 := rfl

/-- At the last point the part of the first block inside the array is its first 1440 columns, -/
theorem xsize0_last : ∀ t : Fin cfg0.N, t.val = 35 → ∀ a, win0_0.xsize (grid0.coords t) a = ![32, 1440] a :=
  (by decide +kernel : ∀ t : Fin grid0.N, t.val = 35 → ∀ a, win0_0.xsize (grid0.coords t) a = ![32, 1440] a)
/-- and of the second block its first 1440 rows. -/
theorem xsize1_last : ∀ t : Fin cfg0.N, t.val = 35 → ∀ a, win0_1.xsize (grid0.coords t) a = ![1440, 1024] a :=
  (by decide +kernel : ∀ t : Fin grid0.N, t.val = 35 → ∀ a, win0_1.xsize (grid0.coords t) a = ![1440, 1024] a)

theorem maskA_fill (t : Fin cfg0.N) (ht : t.val = 35) (d d' : S32x2816.Idx → Elt F .f32)
    (g : (win0_0.xblock (grid0.coords t)).Idx → Elt F .f32) :
    maskA (win0_0.fill (grid0.coords t) d g) = maskA (win0_0.fill (grid0.coords t) d' g) := by
  funext j
  unfold maskA
  rw [shapeCast_self, shapeCast_self]
  show Scalar.select _ _ _ = Scalar.select _ _ _
  unfold Scalar.select
  by_cases hc : cmpi .slt (iota .tc S32x2816 32 [1] iota_S32x2816_d1_w32) (broadcast S32x2816 1440#32) j = 1
  · rw [if_pos hc, if_pos hc]
    have hj : (j 1).val < 1440 := by
      have h := hc
      unfold cmpi at h
      rw [iota_single_apply] at h
      exact (slt_1440_iff _ (lt_trans (j 1).isLt (by decide))).mp h
    have hm : win0_0.moved (grid0.coords t) j = true := (win0_0.moved_iff _ j).mpr fun a => by
      rw [xsize0_last t ht a]
      match a with
      | ⟨0, _⟩ => exact (j 0).isLt
      | ⟨1, _⟩ => exact hj
    unfold Window.fill; rw [dif_pos hm, dif_pos hm]
  · rw [if_neg hc, if_neg hc]

theorem maskB_fill (t : Fin cfg0.N) (ht : t.val = 35) (d d' : S2816x1024.Idx → Elt F .f32)
    (g : (win0_1.xblock (grid0.coords t)).Idx → Elt F .f32) :
    maskB (win0_1.fill (grid0.coords t) d g) = maskB (win0_1.fill (grid0.coords t) d' g) := by
  funext j
  unfold maskB
  rw [shapeCast_self, shapeCast_self]
  show Scalar.select _ _ _ = Scalar.select _ _ _
  unfold Scalar.select
  by_cases hc : cmpi .slt (iota .tc S2816x1024 32 [0] iota_S2816x1024_d0_w32) (broadcast S2816x1024 1440#32) j = 1
  · rw [if_pos hc, if_pos hc]
    have hj : (j 0).val < 1440 := by
      have h := hc
      unfold cmpi at h
      rw [iota_single_apply] at h
      exact (slt_1440_iff _ (lt_trans (j 0).isLt (by decide))).mp h
    have hm : win0_1.moved (grid0.coords t) j = true := (win0_1.moved_iff _ j).mpr fun a => by
      rw [xsize1_last t ht a]
      match a with
      | ⟨0, _⟩ => exact hj
      | ⟨1, _⟩ => exact (j 1).isLt
    unfold Window.fill; rw [dif_pos hm, dif_pos hm]
  · rw [if_neg hc, if_neg hc]

/-! ## The body obligation -/

theorem live2' : ∀ t : Fin cfg0.N, idle0 2 (grid0.coords t) = false :=
  (by decide +kernel : ∀ t : Fin grid0.N, idle0 2 (grid0.coords t) = false)

/-- At the first point the output's buffer holds anything. -/
theorem before_2_first (c : Dev nD) (t : Fin cfg0.N) (ht : t.val = 0) (d) : (dats m 0 c).before 2 t d = d :=
  Dat.before_out_reset _ 2 rfl t (.inl ht) d

/-- What the body is called with at point `t`: each input's buffer just fetched, the output's as the point
    before left it; -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- and what it returns: the inputs' buffers holding their blocks on the part inside the arrays, the output's
    the accumulator. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare
        (win0_0.fill (grid0.coords t) d (win0_0.cut (grid0.coords t) (inA m c t))))
    ∗ (∃ d, owns (c : Thread nD τ) (win0_1.stage (cfg0.slots t 1)) fullShare
        (win0_1.fill (grid0.coords t) d (win0_1.cut (grid0.coords t) (inB m c t))))
    ∗ owns (c : Thread nD τ) (win0_2.stage (cfg0.slots t 2)) fullShare (acc m c t.val t.isLt))

set_option maxHeartbeats 800000 in
/-- The body at any point, by the three cases. Before the last point the input blocks lie inside their arrays, so
    the buffers hold exactly the blocks; at the last point they hold anything past the arrays' end, which the
    masks discard. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show win0_0.cut (grid0.coords t) (inA m c t) = iblk m c 0 t from win0_0.cut_fill _ _ _,
    show win0_1.cut (grid0.coords t) (inB m c t) = iblk m c 1 t from win0_1.cut_fill _ _ _]
  have hN : t.val < 36 := lt_of_lt_of_eq t.isLt (show cfg0.N = 36 from N_0)
  by_cases h0 : t.val = 0
  · simp only [before_2_first m c t h0]
    iintro ⟨HΦ, Ho, ⟨%d0, H0⟩, ⟨%d1, H1⟩, ⟨%d2, H2⟩⟩
    have eA : inA m c t = win0_0.fill (grid0.coords t) d0 (iblk m c 0 t) :=
      Pipeline.fill_of_clip_none (cfg := cfg0) 0 _ (noclip0 t (by omega)) _ _ _
    have eB : inB m c t = win0_1.fill (grid0.coords t) d1 (iblk m c 1 t) :=
      Pipeline.fill_of_clip_none (cfg := cfg0) 1 _ (noclip1 t (by omega)) _ _ _
    rw [acc_first m c t h0, eA, eB]
    iapply (run_first (F := F) c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      ((cond1_iff t).mpr h0) ((cond2_iff t).mpr (by omega)) (fun h => by have := (cond3_iff t).mp h; omega)
      (win0_0.fill (grid0.coords t) d0 (iblk m c 0 t)) (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    iexact H2
  · simp only [before_2 m c t h0]
    iintro ⟨HΦ, Ho, ⟨%d0, H0⟩, ⟨%d1, H1⟩, ⟨%d2, H2⟩⟩
    by_cases h35 : t.val < 35
    · have eA : inA m c t = win0_0.fill (grid0.coords t) d0 (iblk m c 0 t) :=
        Pipeline.fill_of_clip_none (cfg := cfg0) 0 _ (noclip0 t h35) _ _ _
      have eB : inB m c t = win0_1.fill (grid0.coords t) d1 (iblk m c 1 t) :=
        Pipeline.fill_of_clip_none (cfg := cfg0) 1 _ (noclip1 t h35) _ _ _
      rw [acc_mid m c t h0 h35, eA, eB]
      iapply (run_mid (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (fun h => h0 ((cond1_iff t).mp h)) ((cond2_iff t).mpr h35) (fun h => by have := (cond3_iff t).mp h; omega)
        (win0_0.fill (grid0.coords t) d0 (iblk m c 0 t)) (win0_1.fill (grid0.coords t) d1 (iblk m c 1 t))
        (acc m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      iexact H2
    · have e35 : t.val = 35 := by omega
      have eL : acc m c t.val t.isLt = k0_pay3 (win0_0.fill (grid0.coords t) d0 (iblk m c 0 t))
          (win0_1.fill (grid0.coords t) d1 (iblk m c 1 t)) (acc m c (t.val - 1) (Nat.lt_of_le_of_lt (Nat.sub_le _ _) t.isLt)) := by
        rw [acc_last m c t h0 h35, pay3_eq, pay3_eq]
        unfold inA inB
        rw [maskA_fill t e35 _ d0, maskB_fill t e35 _ d1]
      rw [eL]
      iapply (run_last (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (fun h => h0 ((cond1_iff t).mp h)) (fun h => h35 ((cond2_iff t).mp h)) ((cond3_iff t).mpr e35)
        (win0_0.fill (grid0.coords t) d0 (iblk m c 0 t)) (win0_1.fill (grid0.coords t) d1 (iblk m c 1 t))
        (acc m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      iexact H2

/-- The library's body obligation, at every point: the input windows, whose last blocks overhang their arrays,
    are stated on the part inside the arrays only. -/
theorem body_obligation (c : Dev nD) : BodyObligationLoose (dats (F := F) m 0 c) (defs₀ (F := F)) Variants.none () Set.univ := fun t => by
  rw [bigSep_W0, bigSep_W0]
  simp only [live2' t]
  exact sound_body m c t

/-! ## The run and the frame -/

set_option backward.isDefEq.respectTransparency.types false in
/-- Every weakly fair execution of @main terminates, with every array of the pipeline at what the proof data
    says and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealBody.lean ====
import proofs.«122633_g60258391163021_cont_9to1_m_978_26_alg».proof.Proof.Gen.KernelIdeal.Launch
import proofs.«122633_g60258391163021_cont_9to1_m_978_26_alg».proof.Proof.Gen.KernelIdeal.Skeleton
import proofs.«122633_g60258391163021_cont_9to1_m_978_26_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body, case by case

The body is three conditionals on the grid coordinate `k`: at `k = 0` it zeroes the output block; at
`k < 35` it adds to the output block the product of the two input blocks; at `k = 35` it adds the product of
the two input blocks with the columns (rows) from 1440 on replaced by zero. On a 36-point grid exactly three
combinations occur: the first point (zero, then add), the middle points (add), the last point (masked add).
Each input buffer is read whole and left as found; the output buffer is stored whole, so it ends holding the
stored value whatever it held. -/

/-- The first point: the output block is zeroed and the product of the input blocks added to the zeros. -/
theorem run_first (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : k0_cond1 i = 1#1) (h2 : k0_cond2 i = 1#1) (h3 : ¬ k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay2 (k0_pay1 (F := F)) x1 x2)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

/-- A middle point: the product of the input blocks is added to what the output block held. -/
theorem run_mid (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : ¬ k0_cond1 i = 1#1) (h2 : k0_cond2 i = 1#1) (h3 : ¬ k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay2 x3 x1 x2)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

/-- The last point: the product of the masked input blocks is added to what the output block held. -/
theorem run_last (c : Dev nD) (i : grid0.Coords)
    (arg1 : Memref sig .tc .vmem S32x2816 .f32) (harg1 : arg1.IsWhole)
    (arg2 : Memref sig .tc .vmem S2816x1024 .f32) (harg2 : arg2.IsWhole)
    (arg3 : Memref sig .tc .vmem S32x1024 .f32) (harg3 : arg3.IsWhole)
    (h1 : ¬ k0_cond1 i = 1#1) (h2 : ¬ k0_cond2 i = 1#1) (h3 : k0_cond3 i = 1#1)
    (x1 : Vec F S32x2816 .f32) (x2 : Vec F S2816x1024 .f32) (x3 : Vec F S32x1024 .f32)
    (E : Set ℕ) (K : PUnit → sProp 𝕄) :
    iprop(owns (c : Thread nD τ) arg1 fullShare x1 ∗ owns (c : Thread nD τ) arg2 fullShare x2
        ∗ owns (c : Thread nD τ) arg3 fullShare x3
        ∗ (iprop(owns (c : Thread nD τ) arg1 fullShare x1 ∗ owns (c : Thread nD τ) arg2 fullShare x2
            ∗ owns (c : Thread nD τ) arg3 fullShare (k0_pay3 x1 x2 x3)) -∗ K ⟨⟩))
      ⊢ wp frame (wpE (defs₀ (F := F)) Variants.none c none) E (cc0__mm_kernel i arg1 harg1 arg2 harg2 arg3 harg3) K := by
  have hz : (![0, 0] : Fin 2 → Nat) = fun _ => 0 := funext fun a => by fin_cases a <;> rfl
  simp only [cc0__mm_kernel_eq_skeleton]; unfold cc0__mm_kernel_skel
  unfold owns
  iintro ⟨⟨%f1, %hf1, H1⟩, ⟨%f2, %hf2, H2⟩, ⟨%f3, %hf3, H3⟩, Hk⟩
  obtain rfl := harg1.eq_unread hf1
  obtain rfl := harg2.eq_unread hf2
  obtain rfl := harg3.eq_unread hf3
  sl_exec (disch := first | exact h1 | exact h2 | exact h3)
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  rw [View.read_writes_eq_canon _ _ _ (fun y => ⟨_, List.mem_cons_self .., View.mem_set_unit_zero hz inb_S32x1024_S32x1024_0_0 y⟩), View.canon_cons_unit_zero hz]
  sl_unfold_words
  try rw [View.readCov_unit_zero (S := S32x1024) _ hz]
  simp only [View.readAt_eq_ld, hf1, hf2, hf3, View.ld_unit_zero (S := S32x2816) hz,
    View.ld_unit_zero (S := S2816x1024) hz, View.ld_unit_zero (S := S32x1024) hz]

end Cert.KernelIdeal.Hand

end
-- ==== Proof.IdealData.lean ====
import proofs.«122633_g60258391163021_cont_9to1_m_978_26_alg».proof.Proof.IdealBody
import proofs.«122633_g60258391163021_cont_9to1_m_978_26_alg».proof.Proof.Gen.KernelIdeal.Frame
import Idealize.ShloMosaic.Lib.Pipeline.Frame
import Idealize.ShloMosaic.Lib.Pipeline.FrameSuffix
import Idealize.ShloMosaic.Lib.WordArith

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: which case each point is, and where the input blocks are cut

The grid has 36 points. The 2816-wide blocks of the 100000-long contraction axis start at `2816 · k`; the
first 35 lie inside the arrays and the last one, starting at 98560, overhangs them: only its first 1440
columns (rows) are in the array, and only those are fetched. -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 35 :=
  (by decide +kernel : ∀ t : Fin grid0.N, k0_cond2 (grid0.coords t) = 1#1 ↔ t.val < 35)
theorem cond3_iff : ∀ t : Fin cfg0.N, k0_cond3 (grid0.coords t) = 1#1 ↔ t.val = 35 :=
  (by decide +kernel : ∀ t : Fin grid0.N, k0_cond3 (grid0.coords t) = 1#1 ↔ t.val = 35)
/-- Every point stores into the output block. -/
theorem live2 : ∀ t : Fin cfg0.N, cfg0.idle 2 (cfg0.grid.coords t) = false :=
  (by decide +kernel : ∀ t : Fin grid0.N, idle0 2 (grid0.coords t) = false)
/-- Before the last point the input blocks lie inside their arrays. -/
theorem noclip0 : ∀ t : Fin cfg0.N, t.val < 35 → ∀ a, (cfg0.win 0).clip (cfg0.grid.coords t) a = none :=
  (by decide +kernel : ∀ t : Fin grid0.N, t.val < 35 → ∀ a, win0_0.clip (grid0.coords t) a = none)
theorem noclip1 : ∀ t : Fin cfg0.N, t.val < 35 → ∀ a, (cfg0.win 1).clip (cfg0.grid.coords t) a = none :=
  (by decide +kernel : ∀ t : Fin grid0.N, t.val < 35 → ∀ a, win0_1.clip (grid0.coords t) a = none)

/-! ## What the staging buffers hold -/

/-- The first input's block at point `t` as a full 32 × 2816 block: the part inside the array, zero past its end. -/
def inA (c : Dev nD) (t : Fin cfg0.N) : Vec F S32x2816 .f32 :=
  win0_0.fill (grid0.coords t) (fun _ => Scalar.ofBits .f32 0#32) (iblk m c 0 t)
/-- The second input's block at point `t` as a full 2816 × 1024 block: the part inside the array, zero past its end. -/
def inB (c : Dev nD) (t : Fin cfg0.N) : Vec F S2816x1024 .f32 :=
  win0_1.fill (grid0.coords t) (fun _ => Scalar.ofBits .f32 0#32) (iblk m c 1 t)

/-- The accumulator: what the output block holds after the body at position `n` — at the first point the
    product of the blocks added to zeros, then each point's product added to what the point before left, the
    last one with its blocks masked. -/
def acc (c : Dev nD) : (n : ℕ) → n < cfg0.N → Vec F S32x1024 .f32
  | 0, hn => k0_pay2 (k0_pay1 (F := F)) (inA m c ⟨0, hn⟩) (inB m c ⟨0, hn⟩)
  | n + 1, hn =>
    if n + 1 < 35 then k0_pay2 (acc c n (Nat.lt_of_succ_lt hn)) (inA m c ⟨n + 1, hn⟩) (inB m c ⟨n + 1, hn⟩)
    else k0_pay3 (inA m c ⟨n + 1, hn⟩) (inB m c ⟨n + 1, hn⟩) (acc c n (Nat.lt_of_succ_lt hn))

theorem acc_first (c : Dev nD) (t : Fin cfg0.N) (h : t.val = 0) :
    acc m c t.val t.isLt = k0_pay2 (k0_pay1 (F := F)) (inA m c t) (inB m c t) := by
  obtain ⟨n, hn⟩ := t
  cases n with
  | zero => rfl
  | succ n => exact absurd h (Nat.succ_ne_zero n)

theorem acc_mid (c : Dev nD) (t : Fin cfg0.N) (h0 : t.val ≠ 0) (h : t.val < 35) :
    acc m c t.val t.isLt = k0_pay2 (acc m c (t.val - 1) (Nat.lt_of_le_of_lt (Nat.sub_le _ _) t.isLt)) (inA m c t) (inB m c t) := by
  obtain ⟨n, hn⟩ := t
  cases n with
  | zero => exact absurd rfl h0
  | succ n => exact (if_pos h).trans rfl

theorem acc_last (c : Dev nD) (t : Fin cfg0.N) (h0 : t.val ≠ 0) (h : ¬ t.val < 35) :
    acc m c t.val t.isLt = k0_pay3 (inA m c t) (inB m c t) (acc m c (t.val - 1) (Nat.lt_of_le_of_lt (Nat.sub_le _ _) t.isLt)) := by
  obtain ⟨n, hn⟩ := t
  cases n with
  | zero => exact absurd rfl h0
  | succ n => exact (if_neg h).trans rfl

/-- The proof data of the one pipeline on core `c`: the arrays as the region finds them; after the body each
    input's buffer at its block (zero past the array's end) and the output's at the accumulator. -/
def dats (_ : Fin 1) (c : Dev nD) : Dat τ (Elt F) Unit ℕ (UR sig nD τ) ℕ cfg0 c where
  A w := V m c (Pipeline.arrRef spec0 w)
  after w t := match w with
    | ⟨0, _⟩ => inA m c t
    | ⟨1, _⟩ => inB m c t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = inA m c t := by dsimp only [dats]
theorem after_1 (c : Dev nD) (t : Fin cfg0.N) : (dats m 0 c).after 1 t = inB m c t := by dsimp only [dats]
theorem after_2 (c : Dev nD) (t : Fin cfg0.N) : (dats m 0 c).after 2 t = acc m c t.val t.isLt := by dsimp only [dats]

/-- An input's buffer, just fetched, holds its block on the part inside the array and anything past it. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl

/-- After the first point the output's buffer holds what the point before left: it is written back at the last
    point only, every point is live for it, and its block is the whole array. -/
theorem before_2 (c : Dev nD) (t : Fin cfg0.N) (ht : t.val ≠ 0) (d) :
    (dats m 0 c).before 2 t d = acc m c (t.val - 1) (Nat.lt_of_le_of_lt (Nat.sub_le _ _) t.isLt) := by
  have hN : t.val < 36 := lt_of_lt_of_eq t.isLt (show cfg0.N = 36 from N_0)
  rw [Dat.before_of_pos _ 2 t ht ((cfg0.win 2).fetch_out rfl t),
    if_neg (fun h => by have := (flush0_2 _).mp h; dsimp only at this; omega)]
  unfold Dat.left; rw [live2]; dsimp only
  unfold Dat.kept
  rw [Pipeline.fill_of_clip_none (cfg := cfg0) 2 _ (fun _ => rfl) d ((dats m 0 c).after 2 _), Window.fill_cut]
  dsimp only [dats]

/-! ## The last point does not look past the arrays' end

At the last point the body replaces, before it multiplies, every column of the first block (every row of the
second) from 1440 on by zero, and those are exactly the ones past the arrays' end: so what the product is does
not depend on what the staging buffers hold there. -/

/-- A small natural number, as a 32-bit word, is signed-below 1440 iff it is below 1440. -/
theorem slt_1440_iff (n : ℕ) (hn : n < 2 ^ 31) : IntOp.cmpi .slt (BitVec.ofNat 32 n) 1440#32 = 1#1 ↔ n < 1440 := by
  rw [IntOp.cmpi_slt, WordArith.toInt_ofNat_small n hn, show (1440#32 : BitVec 32).toInt = 1440 from by decide]
  omega

/-- The first block with its columns from 1440 on replaced by zero. -/
def maskA (x : Vec F S32x2816 .f32) : FVec F S32x2816 .f32 :=
  select (cmpi .slt (iota .tc S32x2816 32 [1] iota_S32x2816_d1_w32) (broadcast S32x2816 1440#32))
    (shapeCast S32x2816 x shapeCasts_S32x2816_S32x2816) (broadcast S32x2816 (Scalar.ofBits .f32 0x00000000#32))
/-- The second block with its rows from 1440 on replaced by zero. -/
def maskB (x : Vec F S2816x1024 .f32) : FVec F S2816x1024 .f32 :=
  select (cmpi .slt (iota .tc S2816x1024 32 [0] iota_S2816x1024_d0_w32) (broadcast S2816x1024 1440#32))
    (shapeCast S2816x1024 x shapeCasts_S2816x1024_S2816x1024) (broadcast S2816x1024 (Scalar.ofBits .f32 0x00000000#32))

/-- The last point's stored value: the output block plus the product of the masked blocks. -/
def lastSum (a : FVec F S32x2816 .f32) (b : FVec F S2816x1024 .f32) (x3 : Vec F S32x1024 .f32) : FVec F S32x1024 .f32 :=
  addf (shapeCast S32x1024 x3 shapeCasts_S32x1024_S32x1024)
    (matmul dot_S32x2816_S2816x1024_S32x1024_1_0_0_1_n_n none (truncf .bf16 a bitsLt_bf16_f32) (truncf .bf16 b bitsLt_bf16_f32)
      (constant S32x1024 .f32 0x00000000#32))

theorem pay3_eq (x1 : Vec F S32x2816 .f32) (x2 : Vec F S2816x1024 .f32) (x3 : Vec F S32x1024 .f32) :
    k0_pay3 x1 x2 x3 = lastSum (maskA x1) (maskB x2) x3 := rfl

/-- At the last point the part of the first block inside the array is its first 1440 columns, -/
theorem xsize0_last : ∀ t : Fin cfg0.N, t.val = 35 → ∀ a, win0_0.xsize (grid0.coords t) a = ![32, 1440] a :=
  (by decide +kernel : ∀ t : Fin grid0.N, t.val = 35 → ∀ a, win0_0.xsize (grid0.coords t) a = ![32, 1440] a)
/-- and of the second block its first 1440 rows. -/
theorem xsize1_last : ∀ t : Fin cfg0.N, t.val = 35 → ∀ a, win0_1.xsize (grid0.coords t) a = ![1440, 1024] a :=
  (by decide +kernel : ∀ t : Fin grid0.N, t.val = 35 → ∀ a, win0_1.xsize (grid0.coords t) a = ![1440, 1024] a)

theorem maskA_fill (t : Fin cfg0.N) (ht : t.val = 35) (d d' : S32x2816.Idx → Elt F .f32)
    (g : (win0_0.xblock (grid0.coords t)).Idx → Elt F .f32) :
    maskA (win0_0.fill (grid0.coords t) d g) = maskA (win0_0.fill (grid0.coords t) d' g) := by
  funext j
  unfold maskA
  rw [shapeCast_self, shapeCast_self]
  show Scalar.select _ _ _ = Scalar.select _ _ _
  unfold Scalar.select
  by_cases hc : cmpi .slt (iota .tc S32x2816 32 [1] iota_S32x2816_d1_w32) (broadcast S32x2816 1440#32) j = 1
  · rw [if_pos hc, if_pos hc]
    have hj : (j 1).val < 1440 := by
      have h := hc
      unfold cmpi at h
      rw [iota_single_apply] at h
      exact (slt_1440_iff _ (lt_trans (j 1).isLt (by decide))).mp h
    have hm : win0_0.moved (grid0.coords t) j = true := (win0_0.moved_iff _ j).mpr fun a => by
      rw [xsize0_last t ht a]
      match a with
      | ⟨0, _⟩ => exact (j 0).isLt
      | ⟨1, _⟩ => exact hj
    unfold Window.fill; rw [dif_pos hm, dif_pos hm]
  · rw [if_neg hc, if_neg hc]

theorem maskB_fill (t : Fin cfg0.N) (ht : t.val = 35) (d d' : S2816x1024.Idx → Elt F .f32)
    (g : (win0_1.xblock (grid0.coords t)).Idx → Elt F .f32) :
    maskB (win0_1.fill (grid0.coords t) d g) = maskB (win0_1.fill (grid0.coords t) d' g) := by
  funext j
  unfold maskB
  rw [shapeCast_self, shapeCast_self]
  show Scalar.select _ _ _ = Scalar.select _ _ _
  unfold Scalar.select
  by_cases hc : cmpi .slt (iota .tc S2816x1024 32 [0] iota_S2816x1024_d0_w32) (broadcast S2816x1024 1440#32) j = 1
  · rw [if_pos hc, if_pos hc]
    have hj : (j 0).val < 1440 := by
      have h := hc
      unfold cmpi at h
      rw [iota_single_apply] at h
      exact (slt_1440_iff _ (lt_trans (j 0).isLt (by decide))).mp h
    have hm : win0_1.moved (grid0.coords t) j = true := (win0_1.moved_iff _ j).mpr fun a => by
      rw [xsize1_last t ht a]
      match a with
      | ⟨0, _⟩ => exact hj
      | ⟨1, _⟩ => exact (j 1).isLt
    unfold Window.fill; rw [dif_pos hm, dif_pos hm]
  · rw [if_neg hc, if_neg hc]

/-! ## The body obligation -/

theorem live2' : ∀ t : Fin cfg0.N, idle0 2 (grid0.coords t) = false :=
  (by decide +kernel : ∀ t : Fin grid0.N, idle0 2 (grid0.coords t) = false)

/-- At the first point the output's buffer holds anything. -/
theorem before_2_first (c : Dev nD) (t : Fin cfg0.N) (ht : t.val = 0) (d) : (dats m 0 c).before 2 t d = d :=
  Dat.before_out_reset _ 2 rfl t (.inl ht) d

/-- What the body is called with at point `t`: each input's buffer just fetched, the output's as the point
    before left it; -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- and what it returns: the inputs' buffers holding their blocks on the part inside the arrays, the output's
    the accumulator. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare
        (win0_0.fill (grid0.coords t) d (win0_0.cut (grid0.coords t) (inA m c t))))
    ∗ (∃ d, owns (c : Thread nD τ) (win0_1.stage (cfg0.slots t 1)) fullShare
        (win0_1.fill (grid0.coords t) d (win0_1.cut (grid0.coords t) (inB m c t))))
    ∗ owns (c : Thread nD τ) (win0_2.stage (cfg0.slots t 2)) fullShare (acc m c t.val t.isLt))

set_option maxHeartbeats 800000 in
/-- The body at any point, by the three cases. Before the last point the input blocks lie inside their arrays, so
    the buffers hold exactly the blocks; at the last point they hold anything past the arrays' end, which the
    masks discard. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    show win0_0.cut (grid0.coords t) (inA m c t) = iblk m c 0 t from win0_0.cut_fill _ _ _,
    show win0_1.cut (grid0.coords t) (inB m c t) = iblk m c 1 t from win0_1.cut_fill _ _ _]
  have hN : t.val < 36 := lt_of_lt_of_eq t.isLt (show cfg0.N = 36 from N_0)
  by_cases h0 : t.val = 0
  · simp only [before_2_first m c t h0]
    iintro ⟨HΦ, Ho, ⟨%d0, H0⟩, ⟨%d1, H1⟩, ⟨%d2, H2⟩⟩
    have eA : inA m c t = win0_0.fill (grid0.coords t) d0 (iblk m c 0 t) :=
      Pipeline.fill_of_clip_none (cfg := cfg0) 0 _ (noclip0 t (by omega)) _ _ _
    have eB : inB m c t = win0_1.fill (grid0.coords t) d1 (iblk m c 1 t) :=
      Pipeline.fill_of_clip_none (cfg := cfg0) 1 _ (noclip1 t (by omega)) _ _ _
    rw [acc_first m c t h0, eA, eB]
    iapply (run_first (F := F) c (grid0.coords t) (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      ((cond1_iff t).mpr h0) ((cond2_iff t).mpr (by omega)) (fun h => by have := (cond3_iff t).mp h; omega)
      (win0_0.fill (grid0.coords t) d0 (iblk m c 0 t)) (win0_1.fill (grid0.coords t) d1 (iblk m c 1 t)) d2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    isplitl [H1]; · iexists d1; iexact H1
    iexact H2
  · simp only [before_2 m c t h0]
    iintro ⟨HΦ, Ho, ⟨%d0, H0⟩, ⟨%d1, H1⟩, ⟨%d2, H2⟩⟩
    by_cases h35 : t.val < 35
    · have eA : inA m c t = win0_0.fill (grid0.coords t) d0 (iblk m c 0 t) :=
        Pipeline.fill_of_clip_none (cfg := cfg0) 0 _ (noclip0 t h35) _ _ _
      have eB : inB m c t = win0_1.fill (grid0.coords t) d1 (iblk m c 1 t) :=
        Pipeline.fill_of_clip_none (cfg := cfg0) 1 _ (noclip1 t h35) _ _ _
      rw [acc_mid m c t h0 h35, eA, eB]
      iapply (run_mid (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (fun h => h0 ((cond1_iff t).mp h)) ((cond2_iff t).mpr h35) (fun h => by have := (cond3_iff t).mp h; omega)
        (win0_0.fill (grid0.coords t) d0 (iblk m c 0 t)) (win0_1.fill (grid0.coords t) d1 (iblk m c 1 t))
        (acc m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      iexact H2
    · have e35 : t.val = 35 := by omega
      have eL : acc m c t.val t.isLt = k0_pay3 (win0_0.fill (grid0.coords t) d0 (iblk m c 0 t))
          (win0_1.fill (grid0.coords t) d1 (iblk m c 1 t)) (acc m c (t.val - 1) (Nat.lt_of_le_of_lt (Nat.sub_le _ _) t.isLt)) := by
        rw [acc_last m c t h0 h35, pay3_eq, pay3_eq]
        unfold inA inB
        rw [maskA_fill t e35 _ d0, maskB_fill t e35 _ d1]
      rw [eL]
      iapply (run_last (F := F) c (grid0.coords t) (win0_0.stage (cfg0.slots t 0)) (hstage0_0 ((cfg0.slots t 0).cast nbuf0_0))
        (win0_1.stage (cfg0.slots t 1)) (hstage0_1 ((cfg0.slots t 1).cast nbuf0_1))
        (win0_2.stage (cfg0.slots t 2)) (hstage0_2 ((cfg0.slots t 2).cast nbuf0_2))
        (fun h => h0 ((cond1_iff t).mp h)) (fun h => h35 ((cond2_iff t).mp h)) ((cond3_iff t).mpr e35)
        (win0_0.fill (grid0.coords t) d0 (iblk m c 0 t)) (win0_1.fill (grid0.coords t) d1 (iblk m c 1 t))
        (acc m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexists d0; iexact H0
      isplitl [H1]; · iexists d1; iexact H1
      iexact H2

/-- The library's body obligation, at every point: the input windows, whose last blocks overhang their arrays,
    are stated on the part inside the arrays only. -/
theorem body_obligation (c : Dev nD) : BodyObligationLoose (dats (F := F) m 0 c) (defs₀ (F := F)) Variants.none () Set.univ := fun t => by
  rw [bigSep_W0, bigSep_W0]
  simp only [live2' t]
  exact sound_body m c t

/-! ## The run and the frame -/

set_option backward.isDefEq.respectTransparency.types false in
/-- Every weakly fair execution of @main terminates, with every array of the pipeline at what the proof data
    says and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.IdealPay.lean ====
import proofs.«122633_g60258391163021_cont_9to1_m_978_26_alg».proof.Proof.IdealData
import proofs.«122633_g60258391163021_cont_9to1_m_978_26_alg».proof.Proof.LibMatmulSum
import Idealize.ShloMosaic.PureOps.Ideal.Laws
import Idealize.ShloMosaic.Lib.ValueIdx
import Idealize.ShloMosaic.Lib.Pipeline.Value

noncomputable section

namespace Cert.KernelIdeal.IdealValue

open Cert.KernelIdeal Cert.KernelIdeal.Gen Cert.KernelIdeal.Hand
open Idealize.ShloMosaic Idealize.ShloMosaic.ValueIdx

/-! ## The body's arithmetic at the ideal values, entry by entry

Over the extended reals a change of float format is the identity and the matrix unit's product into a zero
accumulator is the plain sum of products. So the middle points' stored value at entry `(p, q)` is the block's
entry plus `∑ k < 2816, A(p, k) · B(k, q)`, and the last point's the same sum with `A`'s columns and `B`'s
rows from 1440 on replaced by zero. -/

/-- The body's product is a plain 32 × 2816 by 2816 × 1024 product. -/
theorem plain : Cert.LibMatmulSum.Plain (n := 32) (K := 2816) (w := 1024) dot_S32x2816_S2816x1024_S32x1024_1_0_0_1_n_n where
  rank := rfl
  size := rfl
  l0 := fun i q => by
    unfold DotDims.lhsIdx
    rw [dif_neg (show ¬(0 : Fin S32x2816.rank) ∈ dot_S32x2816_S2816x1024_S32x1024_1_0_0_1_n_n.lhsBatch by decide),
      dif_pos (show (0 : Fin S32x2816.rank) ∈ dot_S32x2816_S2816x1024_S32x1024_1_0_0_1_n_n.lhsNonContracting by decide)]
    rfl
  l1 := fun i q => dot_S32x2816_S2816x1024_S32x1024_1_0_0_1_n_n.lhsIdx_val_of_single rfl i q
  r0 := fun i q => dot_S32x2816_S2816x1024_S32x1024_1_0_0_1_n_n.rhsIdx_val_of_single rfl i q
  r1 := fun i q => by
    unfold DotDims.rhsIdx
    rw [dif_neg (show ¬(1 : Fin S2816x1024.rank) ∈ dot_S32x2816_S2816x1024_S32x1024_1_0_0_1_n_n.rhsBatch by decide),
      dif_pos (show (1 : Fin S2816x1024.rank) ∈ dot_S32x2816_S2816x1024_S32x1024_1_0_0_1_n_n.rhsNonContracting by decide)]
    rfl

/-- The zero splat is zero. -/
theorem pay1_apply (i : S32x1024.Idx) : k0_pay1 (F := Ideal) i = 0 := by
  show Ideal.ofBits .f32 0x00000000#32 = 0
  exact Ideal.ofBits_zero_f32

/-- The product of two blocks into the zero accumulator, at an entry. -/
theorem prod_apply (a : FVec Ideal S32x2816 .f32) (b : FVec Ideal S2816x1024 .f32) (p : Fin 32) (q : Fin 1024) :
    matmul dot_S32x2816_S2816x1024_S32x1024_1_0_0_1_n_n none (truncf .bf16 a bitsLt_bf16_f32) (truncf .bf16 b bitsLt_bf16_f32)
      (constant S32x1024 .f32 0x00000000#32) (ix2 p q) = ∑ k : Fin 2816, a (ix2 p k) * b (ix2 k q) :=
  (Cert.LibMatmulSum.matmul_zero_at plain none (truncf .bf16 a bitsLt_bf16_f32) (truncf .bf16 b bitsLt_bf16_f32) p q).trans
    (Finset.sum_congr rfl fun k _ => rfl)

/-- A middle point's stored value at an entry. -/
theorem pay2_apply (v9 : Vec Ideal S32x1024 .f32) (v11 : Vec Ideal S32x2816 .f32) (v14 : Vec Ideal S2816x1024 .f32)
    (p : Fin 32) (q : Fin 1024) :
    k0_pay2 v9 v11 v14 (ix2 p q) = v9 (ix2 p q) + ∑ k : Fin 2816, v11 (ix2 p k) * v14 (ix2 k q) := by
  have e : k0_pay2 v9 v11 v14 = addf (shapeCast S32x1024 v9 shapeCasts_S32x1024_S32x1024)
      (matmul dot_S32x2816_S2816x1024_S32x1024_1_0_0_1_n_n none
        (truncf .bf16 (shapeCast S32x2816 v11 shapeCasts_S32x2816_S32x2816) bitsLt_bf16_f32)
        (truncf .bf16 (shapeCast S2816x1024 v14 shapeCasts_S2816x1024_S2816x1024) bitsLt_bf16_f32)
        (constant S32x1024 .f32 0x00000000#32)) := rfl
  rw [e, shapeCast_self, shapeCast_self, shapeCast_self, addf_apply, prod_apply]

/-- The last point's stored value at an entry. -/
theorem lastSum_apply (a : FVec Ideal S32x2816 .f32) (b : FVec Ideal S2816x1024 .f32) (x3 : Vec Ideal S32x1024 .f32)
    (p : Fin 32) (q : Fin 1024) :
    lastSum a b x3 (ix2 p q) = x3 (ix2 p q) + ∑ k : Fin 2816, a (ix2 p k) * b (ix2 k q) := by
  unfold lastSum
  rw [shapeCast_self, addf_apply, prod_apply]

/-- The masked first block at an entry. -/
theorem maskA_apply (x : Vec Ideal S32x2816 .f32) (p : Fin 32) (k : Fin 2816) :
    maskA x (ix2 p k) = if k.val < 1440 then x (ix2 p k) else 0 := by
  unfold maskA
  rw [shapeCast_self]
  show Scalar.select (cmpi .slt (iota .tc S32x2816 32 [1] iota_S32x2816_d1_w32) (broadcast S32x2816 1440#32) (ix2 p k)) _ _ = _
  unfold Scalar.select cmpi
  rw [iota_single_apply]
  have hiff := slt_1440_iff k.val (lt_trans k.isLt (by decide))
  by_cases hk : k.val < 1440
  · rw [if_pos hk]; exact if_pos (hiff.mpr hk)
  · rw [if_neg hk]; exact (if_neg (fun h => hk (hiff.mp h))).trans Ideal.ofBits_zero_f32

/-- The masked second block at an entry. -/
theorem maskB_apply (x : Vec Ideal S2816x1024 .f32) (k : Fin 2816) (q : Fin 1024) :
    maskB x (ix2 k q) = if k.val < 1440 then x (ix2 k q) else 0 := by
  unfold maskB
  rw [shapeCast_self]
  show Scalar.select (cmpi .slt (iota .tc S2816x1024 32 [0] iota_S2816x1024_d0_w32) (broadcast S2816x1024 1440#32) (ix2 k q)) _ _ = _
  unfold Scalar.select cmpi
  rw [iota_single_apply]
  have hiff := slt_1440_iff k.val (lt_trans k.isLt (by decide))
  by_cases hk : k.val < 1440
  · rw [if_pos hk]; exact if_pos (hiff.mpr hk)
  · rw [if_neg hk]; exact (if_neg (fun h => hk (hiff.mp h))).trans Ideal.ofBits_zero_f32

end Cert.KernelIdeal.IdealValue

end
-- ==== Proof.IdealBlocks.lean ====
import proofs.«122633_g60258391163021_cont_9to1_m_978_26_alg».proof.Proof.IdealData
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.IdealValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## Where the input blocks sit

Point `t`'s block of the first operand (32 × 100000) is its columns `2816 t … 2816 t + 2815`, of the second
(100000 × 1024) its rows of the same range; the part inside the arrays is what is below 100000. -/

theorem index0 : ∀ t : Fin cfg0.N, win0_0.index t = ![0, t.val] :=
  (by decide +kernel : ∀ t : Fin grid0.N, win0_0.index t = ![0, t.val])
theorem index1 : ∀ t : Fin cfg0.N, win0_1.index t = ![t.val, 0] :=
  (by decide +kernel : ∀ t : Fin grid0.N, win0_1.index t = ![t.val, 0])
theorem xsize0 : ∀ t : Fin cfg0.N, ∀ a, win0_0.xsize (grid0.coords t) a = ![32, if t.val = 35 then 1440 else 2816] a :=
  (by decide +kernel : ∀ t : Fin grid0.N, ∀ a, win0_0.xsize (grid0.coords t) a = ![32, if t.val = 35 then 1440 else 2816] a)
theorem xsize1 : ∀ t : Fin cfg0.N, ∀ a, win0_1.xsize (grid0.coords t) a = ![if t.val = 35 then 1440 else 2816, 1024] a :=
  (by decide +kernel : ∀ t : Fin grid0.N, ∀ a, win0_1.xsize (grid0.coords t) a = ![if t.val = 35 then 1440 else 2816, 1024] a)

/-- The first block at an entry: the array's entry in column `2816 t + j` if that is a column of the array, else zero. -/
theorem inA_apply (c : Dev nD) (t : Fin cfg0.N) (p : Fin 32) (j : Fin 2816) :
    inA m c t (ix2 p j) = ((if h : t.val * 2816 + j.val < 100000 then (V m c main_v1 : S32x100000.Idx → EReal) (ix2 p ⟨t.val * 2816 + j.val, h⟩) else (0 : EReal)) : EReal) := by
  have hN : t.val < 36 := lt_of_lt_of_eq t.isLt (show cfg0.N = 36 from N_0)
  have hx1 := xsize0 t 1
  unfold inA Window.fill
  split
  · next hm =>
    have hj : j.val < win0_0.xsize (grid0.coords t) 1 := (win0_0.moved_iff _ _).mp hm 1
    rw [hx1] at hj
    have h : t.val * 2816 + j.val < 100000 := by
      by_cases e : t.val = 35
      · rw [show (![32, if t.val = 35 then 1440 else 2816] : Fin 2 → ℕ) 1 = if t.val = 35 then 1440 else 2816 from rfl, if_pos e] at hj; omega
      · omega
    rw [dif_pos h]
    unfold iblk
    rw [View.read_apply]
    show (V m c main_v1 : S32x100000.Idx → EReal) (((cfg0.win 0).blk t).view.emb _) = _
    refine congrArg (V m c main_v1 : S32x100000.Idx → EReal) (funext fun a => Fin.ext ?_)
    have e0 : win0_0.index t 0 = 0 := congrFun (index0 t) 0
    have e1 : win0_0.index t 1 = t.val := congrFun (index0 t) 1
    match a with
    | ⟨0, _⟩ => show win0_0.index t 0 * 32 + 1 * p.val = p.val; rw [e0]; omega
    | ⟨1, _⟩ => show win0_0.index t 1 * 2816 + 1 * j.val = t.val * 2816 + j.val; rw [e1]; omega
  · next hm =>
    have h : ¬ t.val * 2816 + j.val < 100000 := fun h => hm ((win0_0.moved_iff _ _).mpr fun a => by
      match a with
      | ⟨0, _⟩ => show p.val < win0_0.xsize (grid0.coords t) 0; rw [xsize0 t 0]; exact p.isLt
      | ⟨1, _⟩ =>
        show j.val < win0_0.xsize (grid0.coords t) 1
        rw [hx1]
        show j.val < if t.val = 35 then 1440 else 2816
        have := j.isLt
        split <;> omega)
    rw [dif_neg h]
    exact Ideal.ofBits_zero_f32

/-- The second block at an entry: the array's entry in row `2816 t + j` if that is a row of the array, else zero. -/
theorem inB_apply (c : Dev nD) (t : Fin cfg0.N) (j : Fin 2816) (q : Fin 1024) :
    inB m c t (ix2 j q) = ((if h : t.val * 2816 + j.val < 100000 then (V m c main_v0 : S100000x1024.Idx → EReal) (ix2 ⟨t.val * 2816 + j.val, h⟩ q) else (0 : EReal)) : EReal) := by
  have hN : t.val < 36 := lt_of_lt_of_eq t.isLt (show cfg0.N = 36 from N_0)
  have hx0 := xsize1 t 0
  unfold inB Window.fill
  split
  · next hm =>
    have hj : j.val < win0_1.xsize (grid0.coords t) 0 := (win0_1.moved_iff _ _).mp hm 0
    rw [hx0] at hj
    have h : t.val * 2816 + j.val < 100000 := by
      by_cases e : t.val = 35
      · rw [show (![if t.val = 35 then 1440 else 2816, 1024] : Fin 2 → ℕ) 0 = if t.val = 35 then 1440 else 2816 from rfl, if_pos e] at hj; omega
      · omega
    rw [dif_pos h]
    unfold iblk
    rw [View.read_apply]
    show (V m c main_v0 : S100000x1024.Idx → EReal) (((cfg0.win 1).blk t).view.emb _) = _
    refine congrArg (V m c main_v0 : S100000x1024.Idx → EReal) (funext fun a => Fin.ext ?_)
    have e0 : win0_1.index t 0 = t.val := congrFun (index1 t) 0
    have e1 : win0_1.index t 1 = 0 := congrFun (index1 t) 1
    match a with
    | ⟨0, _⟩ => show win0_1.index t 0 * 2816 + 1 * j.val = t.val * 2816 + j.val; rw [e0]; omega
    | ⟨1, _⟩ => show win0_1.index t 1 * 1024 + 1 * q.val = q.val; rw [e1]; omega
  · next hm =>
    have h : ¬ t.val * 2816 + j.val < 100000 := fun h => hm ((win0_1.moved_iff _ _).mpr fun a => by
      match a with
      | ⟨0, _⟩ =>
        show j.val < win0_1.xsize (grid0.coords t) 0
        rw [hx0]
        show j.val < if t.val = 35 then 1440 else 2816
        have := j.isLt
        split <;> omega
      | ⟨1, _⟩ => show q.val < win0_1.xsize (grid0.coords t) 1; rw [xsize1 t 1]; exact q.isLt)
    rw [dif_neg h]
    exact Ideal.ofBits_zero_f32

/-! ## The arrays the region finds: the arguments transposed -/

/-- The first operand is the second argument transposed: entry `(p, k)` is the argument's `(k, p)`. -/
theorem V_v1_apply (c : Dev nD) (p : Fin 32) (k : Fin 100000) :
    (V m c main_v1 : S32x100000.Idx → EReal) (ix2 p k) = (m ((c : Thread nD τ).loc main_arg1) : S100000x32.Idx → EReal) (ix2 k p) := by
  have e : (V m c main_v1 : S32x100000.Idx → EReal)
      = transpose S32x100000 [1, 0] (m ((c : Thread nD τ).loc main_arg1) : S100000x32.Idx → EReal) transposes_S100000x32_S32x100000_1_0 := by
    show StableHlo.after hostOps0 (fun b => m (c, b)) (Proc.devRef .tc main_v1) = _
    after_results
  rw [e]
  exact transpose_ix2_apply _ _ p k

/-- The second operand is the first argument transposed: entry `(k, q)` is the argument's `(q, k)`. -/
theorem V_v0_apply (c : Dev nD) (k : Fin 100000) (q : Fin 1024) :
    (V m c main_v0 : S100000x1024.Idx → EReal) (ix2 k q) = (m ((c : Thread nD τ).loc main_arg0) : S1024x100000.Idx → EReal) (ix2 q k) := by
  have e : (V m c main_v0 : S100000x1024.Idx → EReal)
      = transpose S100000x1024 [1, 0] (m ((c : Thread nD τ).loc main_arg0) : S1024x100000.Idx → EReal) transposes_S1024x100000_S100000x1024_1_0 := by
    show StableHlo.after hostOps0 (fun b => m (c, b)) (Proc.devRef .tc main_v0) = _
    after_results
  rw [e]
  exact transpose_ix2_apply _ _ k q

end Cert.KernelIdeal.IdealValue

end
-- ==== Proof.LibBlockedSum.lean ====
/-
  Sums over an initial segment of the naturals, cut into blocks: the first (n + 1) · B terms are the first n · B
  and the next B; and a sum whose terms vanish from N on may stop at N.
-/
import Mathlib.Algebra.BigOperators.Fin
import Mathlib.Algebra.BigOperators.Intervals

namespace Cert.LibBlockedSum

open Finset

/-- The first `(n + 1) · B` terms: the first `n · B`, then the block of `B` terms starting at `n · B`. -/
theorem sum_range_succ_block {M : Type*} [AddCommMonoid M] (f : ℕ → M) (B n : ℕ) :
    ∑ k ∈ range ((n + 1) * B), f k = ∑ k ∈ range (n * B), f k + ∑ j : Fin B, f (n * B + j.val) := by
  rw [Nat.succ_mul, sum_range_add, Fin.sum_univ_eq_sum_range (fun j => f (n * B + j)) B]

/-- Terms that vanish from `N` on contribute nothing. -/
theorem sum_range_of_zero_tail {M : Type*} [AddCommMonoid M] (f : ℕ → M) {N L : ℕ} (h : N ≤ L) (hz : ∀ k, N ≤ k → f k = 0) :
    ∑ k ∈ range L, f k = ∑ k ∈ range N, f k := by
  obtain ⟨d, rfl⟩ := Nat.exists_eq_add_of_le h
  rw [sum_range_add, sum_eq_zero (fun x _ => hz _ (Nat.le_add_right _ _)), add_zero]

end Cert.LibBlockedSum
-- ==== Proof.IdealAcc.lean ====
import proofs.«122633_g60258391163021_cont_9to1_m_978_26_alg».proof.Proof.IdealPay
import proofs.«122633_g60258391163021_cont_9to1_m_978_26_alg».proof.Proof.IdealBlocks
import proofs.«122633_g60258391163021_cont_9to1_m_978_26_alg».proof.Proof.LibBlockedSum

set_option maxRecDepth 16384

noncomputable section

namespace Cert.KernelIdeal.IdealValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The accumulator is a partial sum

Write `a` for the first argument (1024 × 100000) and `b` for the second (100000 × 32). Entry `(p, q)` of the
32 × 1024 output block collects the terms `a(q, k) · b(k, p)`, `k < 100000`, 2816 at a time: after point `n`
it holds the sum of the first `2816 (n + 1)` of them, the terms from 100000 on counted as zero. Addition on the
extended reals is associative and commutative, so the grouping does not matter, and nothing here needs the
inputs finite. -/

/-- The first argument, a 1024 × 100000 matrix of extended reals. -/
abbrev argA (c : Dev nD) : S1024x100000.Idx → EReal := m ((c : Thread nD τ).loc main_arg0)
/-- The second argument, a 100000 × 32 matrix of extended reals. -/
abbrev argB (c : Dev nD) : S100000x32.Idx → EReal := m ((c : Thread nD τ).loc main_arg1)

/-- The `k`-th term of entry `(p, q)`, zero from 100000 on. -/
def term (c : Dev nD) (p : Fin 32) (q : Fin 1024) (k : ℕ) : EReal :=
  if h : k < 100000 then argA m c (ix2 q ⟨k, h⟩) * argB m c (ix2 ⟨k, h⟩ p) else 0

/-- Before the last point a product of block entries is a term. -/
theorem block_term (c : Dev nD) (t : Fin cfg0.N) (ht : t.val < 35) (p : Fin 32) (q : Fin 1024) (j : Fin 2816) :
    inA m c t (ix2 p j) * inB m c t (ix2 j q) = term m c p q (t.val * 2816 + j.val) := by
  have h : t.val * 2816 + j.val < 100000 := by have := j.isLt; omega
  rw [inA_apply, inB_apply, dif_pos h, dif_pos h, V_v1_apply, V_v0_apply]
  unfold term
  rw [dif_pos h, mul_comm]

/-- At the last point a product of masked block entries is a term: the masked entries are those from 100000 on. -/
theorem last_term (c : Dev nD) (t : Fin cfg0.N) (ht : t.val = 35) (p : Fin 32) (q : Fin 1024) (j : Fin 2816) :
    maskA (inA m c t) (ix2 p j) * maskB (inB m c t) (ix2 j q) = term m c p q (t.val * 2816 + j.val) := by
  rw [maskA_apply, maskB_apply]
  by_cases hj : j.val < 1440
  · have h : t.val * 2816 + j.val < 100000 := by omega
    rw [if_pos hj, if_pos hj, inA_apply, inB_apply, dif_pos h, dif_pos h, V_v1_apply, V_v0_apply]
    unfold term
    rw [dif_pos h, mul_comm]
  · have h : ¬ t.val * 2816 + j.val < 100000 := by omega
    rw [if_neg hj, if_neg hj, mul_zero]
    unfold term
    rw [dif_neg h]

/-- After point `n` the output block holds the sum of the first `2816 (n + 1)` terms. -/
theorem acc_apply (c : Dev nD) : ∀ (n : ℕ) (hn : n < cfg0.N) (p : Fin 32) (q : Fin 1024),
    acc m c n hn (ix2 p q) = ∑ k ∈ Finset.range ((n + 1) * 2816), term m c p q k
  | 0, hn, p, q => by
    have e : acc m c 0 hn = k0_pay2 (k0_pay1 (F := Ideal)) (inA m c ⟨0, hn⟩) (inB m c ⟨0, hn⟩) := rfl
    rw [e, pay2_apply, pay1_apply, Cert.LibBlockedSum.sum_range_succ_block _ 2816 0, Nat.zero_mul, Finset.range_zero,
      Finset.sum_empty]
    exact congrArg (0 + ·) (Finset.sum_congr rfl fun j _ => (block_term m c ⟨0, hn⟩ (Nat.zero_lt_succ 34) p q j).trans (by rw [Nat.zero_mul]))
  | n + 1, hn, p, q => by
    have ih := acc_apply c n (Nat.lt_of_succ_lt hn) p q
    have hN : n + 1 < 36 := lt_of_lt_of_eq hn (show cfg0.N = 36 from N_0)
    by_cases h : n + 1 < 35
    · have e : acc m c (n + 1) hn = k0_pay2 (acc m c n (Nat.lt_of_succ_lt hn)) (inA m c ⟨n + 1, hn⟩) (inB m c ⟨n + 1, hn⟩) :=
        (if_pos h).trans rfl
      rw [e, pay2_apply, ih, Cert.LibBlockedSum.sum_range_succ_block _ 2816 (n + 1)]
      exact congrArg (_ + ·) (Finset.sum_congr rfl fun j _ => block_term m c ⟨n + 1, hn⟩ h p q j)
    · have e35 : n + 1 = 35 := by omega
      have e : acc m c (n + 1) hn = k0_pay3 (inA m c ⟨n + 1, hn⟩) (inB m c ⟨n + 1, hn⟩) (acc m c n (Nat.lt_of_succ_lt hn)) :=
        (if_neg h).trans rfl
      rw [e, pay3_eq, lastSum_apply, ih, Cert.LibBlockedSum.sum_range_succ_block _ 2816 (n + 1)]
      exact congrArg (_ + ·) (Finset.sum_congr rfl fun j _ => last_term m c ⟨n + 1, hn⟩ e35 p q j)

/-- After the last point: the whole sum. -/
theorem acc_final (c : Dev nD) (hn : 35 < cfg0.N) (p : Fin 32) (q : Fin 1024) :
    acc m c 35 hn (ix2 p q) = ∑ k : Fin 100000, argA m c (ix2 q k) * argB m c (ix2 k p) := by
  rw [acc_apply, Cert.LibBlockedSum.sum_range_of_zero_tail (term m c p q) (N := 100000) (by decide)
    (fun k hk => dif_neg (by omega)), Finset.sum_range]
  exact Finset.sum_congr rfl fun k _ => dif_pos k.isLt

end Cert.KernelIdeal.IdealValue

end
-- ==== Proof.IdealFinal.lean ====
import proofs.«122633_g60258391163021_cont_9to1_m_978_26_alg».proof.Proof.IdealAcc

set_option maxRecDepth 16384

noncomputable section

namespace Cert.KernelIdeal.IdealValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## From the output block to the result

The output window's one block is the whole 32 × 1024 array, written back once, after the last point; the host
then transposes it. So the result's entry `(q, p)` is the output block's `(p, q)` after the last point: the whole
sum `∑ k < 100000, a(q, k) · b(k, p)`. -/

theorem h35 : 35 < cfg0.N := lt_of_lt_of_eq (by decide : 35 < 36) (show cfg0.N = 36 from N_0).symm

/-- What the output block holds after the last point. -/
def outT (c : Dev nD) : S32x1024.Idx → EReal := acc m c 35 h35

theorem index2 : ∀ t : Fin cfg0.N, win0_2.index t = ![0, 0] :=
  (by decide +kernel : ∀ t : Fin grid0.N, win0_2.index t = ![0, 0])

/-- The one write-back writes the whole block, which is the whole array. -/
theorem flushed_eq (c : Dev nD) (t : Fin cfg0.N) (hf : (cfg0.win 2).flush t = true) :
    (dats m 0 c).flushed 2 t = ((cfg0.win 2).blk t).view.read (Elt Ideal) (outT m c) := by
  have hN : t.val < 36 := lt_of_lt_of_eq t.isLt (show cfg0.N = 36 from N_0)
  have e35 : t.val = 35 := by have := (flush0_2 t).mp hf; omega
  show (cfg0.win 2).cut (grid0.coords t) ((dats m 0 c).after 2 t) = _
  rw [after_2]
  obtain ⟨n, hn⟩ := t
  obtain rfl : n = 35 := e35
  funext j
  rw [View.read_apply]
  show acc m c 35 _ _ = acc m c 35 _ (((cfg0.win 2).blk ⟨35, hn⟩).view.emb j)
  refine congrArg (acc m c 35 hn) (funext fun a => Fin.ext ?_)
  have e0 : win0_2.index ⟨35, hn⟩ 0 = 0 := congrFun (index2 ⟨35, hn⟩) 0
  have e1 : win0_2.index ⟨35, hn⟩ 1 = 0 := congrFun (index2 ⟨35, hn⟩) 1
  match a with
  | ⟨0, _⟩ => show (j 0).val = win0_2.index ⟨35, hn⟩ 0 * 32 + 1 * (j 0).val; rw [e0]; omega
  | ⟨1, _⟩ => show (j 1).val = win0_2.index ⟨35, hn⟩ 1 * 1024 + 1 * (j 1).val; rw [e1]; omega

/-- Every entry of the array is in that block. -/
theorem cover (i : S32x1024.Idx) : ∃ t : Fin cfg0.N, (cfg0.win 2).flush t = true ∧ i ∈ ((cfg0.win 2).blk t).view.set := by
  refine ⟨⟨35, h35⟩, (flush0_2 _).mpr rfl, ?_⟩
  show i ∈ ((View.whole main_v2).slice (win0_2.rect ⟨35, h35⟩)).set
  rw [View.set_slice_whole, Rect.mem_set_unit]
  have e0 : win0_2.index ⟨35, h35⟩ 0 = 0 := congrFun (index2 ⟨35, h35⟩) 0
  have e1 : win0_2.index ⟨35, h35⟩ 1 = 0 := congrFun (index2 ⟨35, h35⟩) 1
  intro a
  match a with
  | ⟨0, _⟩ =>
    show win0_2.index ⟨35, h35⟩ 0 * 32 ≤ (i 0).val ∧ (i 0).val < win0_2.index ⟨35, h35⟩ 0 * 32 + 32
    rw [e0]; have hi : (i 0).val < 32 := (i 0).isLt; omega
  | ⟨1, _⟩ =>
    show win0_2.index ⟨35, h35⟩ 1 * 1024 ≤ (i 1).val ∧ (i 1).val < win0_2.index ⟨35, h35⟩ 1 * 1024 + 1024
    rw [e1]; have hi : (i 1).val < 1024 := (i 1).isLt; omega

/-- The output array after the run. -/
theorem final (c : Dev nD) : (dats m 0 c).arrAt 2 cfg0.N = outT m c :=
  (dats m 0 c).arrAt_eq_of_cover 2 (outT m c) (fun t hf => flushed_eq m c t hf) (cover)

/-- The result: entry `(q, p)` is `∑ k < 100000, a(q, k) · b(k, p)`. -/
def result (c : Dev nD) : S1024x32.Idx → EReal :=
  fun i => ∑ k : Fin 100000, argA m c (ix2 (i 0) k) * argB m c (ix2 k (i 1))

theorem transpose_outT (c : Dev nD) :
    transpose S1024x32 [1, 0] (outT m c) transposes_S32x1024_S1024x32_1_0 = result m c := by
  funext i
  obtain ⟨q, p, rfl⟩ : ∃ (q : Fin 1024) (p : Fin 32), i = ix2 q p := ⟨i 0, i 1, eq_ix2 i⟩
  rw [transpose_ix2_apply]
  exact acc_final m c h35 p q

/-- The result buffer after the host's transpose. -/
theorem tail_v3 (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : (Pipeline.withArrays (cfgs 0).spec c (V0 m c) (fun w => (dats m 0 c).arrAt w (cfgs 0).N) (Proc.devRef .tc main_v2)
      : S32x1024.Idx → EReal) = outT m c :=
    (Pipeline.withArrays_arr spec0 launch0.win.arr_inj c _ _ 2).trans (final m c)
  exact (congrArg (fun x : S32x1024.Idx → EReal => transpose S1024x32 [1, 0] x transposes_S32x1024_S1024x32_1_0) e).trans
    (transpose_outT m c)

/-- The idealized kernel's run with its result named: every weakly fair execution terminates with the result
    buffer at `result` and the arguments as they were. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.IdealValue

end
-- ==== Proof.RefValue.lean ====
import proofs.«122633_g60258391163021_cont_9to1_m_978_26_alg».proof.Defs
import proofs.«122633_g60258391163021_cont_9to1_m_978_26_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The reference

The reference is one matrix product on the host: at the ideal values its entry `(q, p)` is
`∑ k < 100000, a(q, k) · b(k, p)`, the contraction index running over the whole axis at once. -/

/-- The reference's result at an entry. -/
theorem dot_apply (a : (⟨S1024x100000, .f32⟩ : BufTy).Contents (Elt Ideal)) (b : (⟨S100000x32, .f32⟩ : BufTy).Contents (Elt Ideal))
    (i : S1024x32.Idx) :
    Cert.ReferenceIdeal.Read.val_main_v0 (F := Ideal) a b i
      = ∑ k : Fin 100000, a (ix2 (i 0) k) * b (ix2 k (i 1)) := by
  rw [Cert.ReferenceIdeal.Read.val_main_v0_apply]
  refine Finset.sum_congr rfl fun k _ => ?_
  have el : Cert.ReferenceIdeal.Read.lidx_main_v0 i k = ix2 (i 0) k :=
    funext fun c => Fin.ext (by match c with | ⟨0, _⟩ => rfl | ⟨1, _⟩ => rfl)
  have er : Cert.ReferenceIdeal.Read.ridx_main_v0 i k = ix2 k (i 1) :=
    funext fun c => Fin.ext (by match c with | ⟨0, _⟩ => rfl | ⟨1, _⟩ => rfl)
  rw [el, er]
  rfl

end Cert.ReferenceIdeal.RefValue

end
-- ==== Proof.lean ====
/-
  The kernel computes the transposed product  outᵀ = bᵀ · aᵀ  of  a : 1024 × 100000  and  b : 100000 × 32  by
  walking the contraction axis in 36 blocks of 2816: at each grid point it multiplies a 32 × 2816 block of bᵀ by
  a 2816 × 1024 block of aᵀ on the matrix unit and adds the product into the 32 × 1024 output block, which it
  zeroes at the first point and writes back after the last. The last block overhangs the arrays (100000 =
  35 · 2816 + 1440): what the staging buffers hold past the arrays' end is unknown, and the body replaces exactly
  those columns and rows by zero before multiplying. The host transposes the arguments before the call and the
  result after it. The reference is the one product  a · b  on the host.

  At the ideal values (extended reals, exact operations, format changes the identity) both results have entry
  (q, p) equal to  ∑ k < 100000, a(q, k) · b(k, p):  the kernel's by induction over the grid points — the output
  block after point n holds the first 2816 (n + 1) terms — using only that addition of extended reals is
  associative and commutative and that multiplication commutes; the precondition is not needed.

  The three frames: the kernel's, at the word level and idealized alike, from the body's triple in each of the
  three cases the conditionals meet (first point, middle points, last point) and proof data that state the
  input buffers only on the part inside the arrays; the reference's from its run.
-/
import proofs.«122633_g60258391163021_cont_9to1_m_978_26_alg».proof.Defs
import proofs.«122633_g60258391163021_cont_9to1_m_978_26_alg».proof.Proof.Gen.Kernel
import proofs.«122633_g60258391163021_cont_9to1_m_978_26_alg».proof.Proof.Gen.KernelIdeal
import proofs.«122633_g60258391163021_cont_9to1_m_978_26_alg».proof.Proof.Gen.ReferenceIdeal
import proofs.«122633_g60258391163021_cont_9to1_m_978_26_alg».proof.Proof.Gen.Pre_finite_inputs
import proofs.«122633_g60258391163021_cont_9to1_m_978_26_alg».proof.Proof.Gen.ReferenceIdeal.Run
import proofs.«122633_g60258391163021_cont_9to1_m_978_26_alg».proof.Proof.BitsData
import proofs.«122633_g60258391163021_cont_9to1_m_978_26_alg».proof.Proof.IdealFinal
import proofs.«122633_g60258391163021_cont_9to1_m_978_26_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at `∑ k < 100000, a(q, k) · b(k, p)` of the arguments they agree on. -/
theorem algebraic : Cert.algebraic_KernelIdeal_ReferenceIdeal := by
  intro m ρ m' ρ' _ hagree
  refine ⟨fun c => Cert.KernelIdeal.IdealValue.result m c, Cert.KernelIdeal.IdealValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  exact Cert.ReferenceIdeal.RefValue.dot_apply _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
